-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1250000 32) (main_arg2 : FVec F S64x64 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩
abbrev S4096x64 : Shape := ⟨2, ![4096, 64]⟩
abbrev S4096x1 : Shape := ⟨2, ![4096, 1]⟩

abbrev nBuf : Space → Nat
  | .hbm => 31
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .f32⟩
  | .hbm, ⟨18, _⟩ => ⟨S_, .f32⟩
  | .hbm, ⟨19, _⟩ => ⟨S100000x64, .f32⟩
  | .hbm, ⟨20, _⟩ => ⟨S1250000x1, .i32⟩
  | .hbm, ⟨21, _⟩ => ⟨S100000x64, .f32⟩
  | .hbm, ⟨22, _⟩ => ⟨S_, .f32⟩
  | .hbm, ⟨23, _⟩ => ⟨S1250000, .f32⟩
  | .hbm, ⟨24, _⟩ => ⟨S_, .f32⟩
  | .hbm, ⟨25, _⟩ => ⟨S100000, .f32⟩
  | .hbm, ⟨26, _⟩ => ⟨S1250000x1, .i32⟩
  | .hbm, ⟨27, _⟩ => ⟨S100000, .f32⟩
  | .hbm, ⟨28, _⟩ => ⟨S100000x1, .f32⟩
  | .hbm, ⟨29, _⟩ => ⟨S1x64, .f32⟩
  | .hbm, ⟨30, _⟩ => ⟨S100000x64, .f32⟩
  | .local _ .vmem, ⟨0, _⟩ => ⟨S4096x64, .f32⟩
  | .local _ .vmem, ⟨1, _⟩ => ⟨S4096x64, .f32⟩
  | .local _ .vmem, ⟨2, _⟩ => ⟨S4096x1, .f32⟩
  | .local _ .vmem, ⟨3, _⟩ => ⟨S4096x1, .f32⟩
  | .local _ .vmem, ⟨4, _⟩ => ⟨S4096x64, .f32⟩
  | .local _ .vmem, ⟨5, _⟩ => ⟨S4096x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S4096x64, .f32⟩
  | .local _ .vmem, ⟨10, _⟩ => ⟨S4096x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S4096x64 : S1x64.Broadcasts S4096x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x64.size a < S100000x64.size a
  hwx0_0 : ∀ i : grid0.Coords, EltTy.bits .f32 = 32 ∨ (Rect.unit (s := S100000x64) (fun a => cc0_transform_0 i a * S4096x64.size a) (fun a => (Pipeline.Clip.of (cc0_transform_0 i a) (S4096x64.size a) (S100000x64.size a)).extent (S4096x64.size a)) fun a => Pipeline.Clip.inb (Pipeline.Clip.ok_of (hstart0_0 i a))).WholeWords (EltTy.packing .f32)
  hwxs0_0 : ∀ i : grid0.Coords, EltTy.bits .f32 = 32 ∨ (Rect.unit (s := S4096x64) (fun _ => 0) (fun a => (Pipeline.Clip.of (cc0_transform_0 i a) (S4096x64.size a) (S100000x64.size a)).extent (S4096x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x1.size a < S100000x1.size a
  hwx0_1 : ∀ i : grid0.Coords, EltTy.bits .f32 = 32 ∨ (Rect.unit (s := S100000x1) (fun a => cc0_transform_1 i a * S4096x1.size a) (fun a => (Pipeline.Clip.of (cc0_transform_1 i a) (S4096x1.size a) (S100000x1.size a)).extent (S4096x1.size a)) fun a => Pipeline.Clip.inb (Pipeline.Clip.ok_of (hstart0_1 i a))).WholeWords (EltTy.packing .f32)
  hwxs0_1 : ∀ i : grid0.Coords, EltTy.bits .f32 = 32 ∨ (Rect.unit (s := S4096x1) (fun _ => 0) (fun a => (Pipeline.Clip.of (cc0_transform_1 i a) (S4096x1.size a) (S100000x1.size a)).extent (S4096x1.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x64.size a < S100000x64.size a
  hwx0_2 : ∀ i : grid0.Coords, EltTy.bits .f32 = 32 ∨ (Rect.unit (s := S100000x64) (fun a => cc0_transform_2 i a * S4096x64.size a) (fun a => (Pipeline.Clip.of (cc0_transform_2 i a) (S4096x64.size a) (S100000x64.size a)).extent (S4096x64.size a)) fun a => Pipeline.Clip.inb (Pipeline.Clip.ok_of (hstart0_2 i a))).WholeWords (EltTy.packing .f32)
  hwxs0_2 : ∀ i : grid0.Coords, EltTy.bits .f32 = 32 ∨ (Rect.unit (s := S4096x64) (fun _ => 0) (fun a => (Pipeline.Clip.of (cc0_transform_2 i a) (S4096x64.size a) (S100000x64.size a)).extent (S4096x64.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S4096x64.size a < S100000x64.size a
  hwx0_6 : ∀ i : grid0.Coords, EltTy.bits .f32 = 32 ∨ (Rect.unit (s := S100000x64) (fun a => cc0_transform_6 i a * S4096x64.size a) (fun a => (Pipeline.Clip.of (cc0_transform_6 i a) (S4096x64.size a) (S100000x64.size a)).extent (S4096x64.size a)) fun a => Pipeline.Clip.inb (Pipeline.Clip.ok_of (hstart0_6 i a))).WholeWords (EltTy.packing .f32)
  hwxs0_6 : ∀ i : grid0.Coords, EltTy.bits .f32 = 32 ∨ (Rect.unit (s := S4096x64) (fun _ => 0) (fun a => (Pipeline.Clip.of (cc0_transform_6 i a) (S4096x64.size a) (S100000x64.size a)).extent (S4096x64.size a)) fun a => (Nat.zero_add _).trans_le (Pipeline.Clip.extent_le (Pipeline.Clip.ok_of (hstart0_6 i a)))).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpecClip (Memref.whole main_v13) S4096x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v18) S4096x1.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg0) S4096x64.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v20) S4096x64.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .f32⟩
  | .hbm, ⟨18, _⟩ => ⟨S_, .f32⟩
  | .hbm, ⟨19, _⟩ => ⟨S100000x64, .f32⟩
  | .hbm, ⟨20, _⟩ => ⟨S1250000x1, .i32⟩
  | .hbm, ⟨21, _⟩ => ⟨S100000x64, .f32⟩
  | .hbm, ⟨22, _⟩ => ⟨S_, .f32⟩
  | .hbm, ⟨23, _⟩ => ⟨S1250000, .f32⟩
  | .hbm, ⟨24, _⟩ => ⟨S_, .f32⟩
  | .hbm, ⟨25, _⟩ => ⟨S100000, .f32⟩
  | .hbm, ⟨26, _⟩ => ⟨S1250000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S64x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.WordFrame.lean ====
/-
  The frame of the word-level kernel: it runs to the end, faults nowhere, and leaves its argument arrays unchanged.

  One grid point handles 4096 rows: the body loads the aggregated-neighbour block, the degree column, the
  feature block, the two weight matrices and the bias row, and stores one value over the whole result buffer.
  The last of the 25 blocks overhangs the 100000-row arrays; its fetches fill the staging rows past the array's
  end with words nothing names, and its write-back moves only the rows inside the array. The frame does not need
  to know what the result holds, so the result's staging buffer is forgotten: handed over and taken back at any
  contents. The input buffers are only read, so each ends holding what it held.
-/
import proofs.«101017_j12481174963003_1_alg».proof.Proof.Gen.Kernel.Frame
import proofs.«101017_j12481174963003_1_alg».proof.Proof.Gen.Kernel.Skeleton
import proofs.«101017_j12481174963003_1_alg».proof.Proof.Gen.Kernel.Launch
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body touches: each is its whole buffer -/

abbrev rBlk : Rect S4096x64 := Rect.unit (s := S4096x64) ![0, 0] S4096x64.size inb_S4096x64_S4096x64_0_0
abbrev rCol : Rect S4096x1 := Rect.unit (s := S4096x1) ![0, 0] S4096x1.size inb_S4096x1_S4096x1_0_0
abbrev rMat : Rect S64x64 := Rect.unit (s := S64x64) ![0, 0] S64x64.size inb_S64x64_S64x64_0_0
abbrev rRow : Rect S1x64 := Rect.unit (s := S1x64) ![0, 0] S1x64.size inb_S1x64_S1x64_0_0

/-- What the result buffer holds after the body, from what the six input buffers hold: its one store, read
    back as the value stored. -/
def stored (a : Vec F S4096x64 .f32) (g : Vec F S4096x1 .f32) (x : Vec F S4096x64 .f32)
    (wn ws : Vec F S64x64 .f32) (b : Vec F S1x64 .f32) : Vec F S4096x64 .f32 :=
  View.canon [⟨rBlk, k0_pay1 (View.ld a rBlk) (View.ld g rCol) (View.ld x rBlk) (View.ld wn rMat) (View.ld ws rMat) (View.ld b rRow)⟩]

/-- The one store covers the result buffer. -/
theorem stored_cover (p0 : Vec F S4096x64 .f32) (y : S4096x64.Idx) :
    ∃ pc ∈ ([⟨rBlk, p0⟩] : List (View.Piece (Elt F) S4096x64 .f32)), y ∈ pc.1.set :=
  View.cover_of_tiled [⟨rBlk, p0⟩] S4096x64.size (by rfl) y

set_option maxHeartbeats 1000000 in
/-- The body's triple: from the six input buffers at `a g x wn ws b` and the result buffer at anything, the body
    runs to the inputs as they were and the result buffer at `stored a g x wn ws b`. -/
theorem sound_kernel (c : Dev nD) (E : Set ℕ) (i : grid0.Coords)
    (arg1 : Memref sig .tc .vmem S4096x64 .f32) (harg1 : arg1.IsWhole) (arg2 : Memref sig .tc .vmem S4096x1 .f32) (harg2 : arg2.IsWhole)
    (arg3 : Memref sig .tc .vmem S4096x64 .f32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S4096x64 .f32) (harg7 : arg7.IsWhole)
    (a : Vec F S4096x64 .f32) (g : Vec F S4096x1 .f32) (x : Vec F S4096x64 .f32) (wn ws : Vec F S64x64 .f32) (b : Vec F S1x64 .f32)
    (K : PUnit → sProp 𝕄) :
    iprop(owns (c : Thread nD τ) arg1 fullShare a ∗ owns (c : Thread nD τ) arg2 fullShare g ∗ owns (c : Thread nD τ) arg3 fullShare x
        ∗ owns (c : Thread nD τ) arg4 fullShare wn ∗ owns (c : Thread nD τ) arg5 fullShare ws ∗ owns (c : Thread nD τ) arg6 fullShare b
        ∗ (∃ d, owns (c : Thread nD τ) arg7 fullShare d)
        ∗ (iprop(owns (c : Thread nD τ) arg1 fullShare a ∗ owns (c : Thread nD τ) arg2 fullShare g ∗ owns (c : Thread nD τ) arg3 fullShare x
            ∗ owns (c : Thread nD τ) arg4 fullShare wn ∗ owns (c : Thread nD τ) arg5 fullShare ws ∗ owns (c : Thread nD τ) arg6 fullShare b
            ∗ owns (c : Thread nD τ) arg7 fullShare (stored a g x wn ws b)) -∗ K ⟨⟩))
      ⊢ wp frame (wpE (defs₀ (F := F)) Variants.none c none) E
          (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored_cover _)

/-! ## The proof data

At point `t` the three row-blocked inputs arrive just fetched: on the rows of the block that lie inside the
array they hold the array's rows, and on the rows past the array's end (only the last block has any) they hold
padding `d` that nothing names. The weights and the bias arrive as their whole arrays. -/

variable (m : (ℓ : Loc nD τ sig) → Buf (Elt F) ℓ) (ρ : Dev nD → PrngReg)

/-- The aggregated-neighbour block at point `t`, padded by `d` past the array's end. -/
abbrev aIn (c : Dev nD) (t : Fin cfg0.N) (d : S4096x64.Idx → Elt F .f32) : S4096x64.Idx → Elt F .f32 :=
  win0_0.fill (grid0.coords t) d (iblk m c 0 t)
/-- The degree column at point `t`, padded likewise. -/
abbrev gIn (c : Dev nD) (t : Fin cfg0.N) (d : S4096x1.Idx → Elt F .f32) : S4096x1.Idx → Elt F .f32 :=
  win0_1.fill (grid0.coords t) d (iblk m c 1 t)
/-- The feature block at point `t`, padded likewise. -/
abbrev xIn (c : Dev nD) (t : Fin cfg0.N) (d : S4096x64.Idx → Elt F .f32) : S4096x64.Idx → Elt F .f32 :=
  win0_2.fill (grid0.coords t) d (iblk m c 2 t)

/-- A padding the proof picks where it must name one: the zero word. -/
def pad64 : S4096x64.Idx → Elt F .f32 := fun _ => Scalar.ofBits .f32 0#32
def pad1 : S4096x1.Idx → Elt F .f32 := fun _ => Scalar.ofBits .f32 0#32

/-- What the result buffer is said to hold after the body at point `t`: the stored value of the inputs padded
    by zeros. Only its rows inside the array are ever written back. -/
def oOut (c : Dev nD) (t : Fin cfg0.N) : S4096x64.Idx → Elt F .f32 :=
  stored (aIn m c t pad64) (gIn m c t pad1) (xIn m c t pad64) (iblk m c 3 t) (iblk m c 4 t) (iblk m c 5 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => aIn m c t pad64
    | ⟨1, _⟩ => gIn m c t pad1
    | ⟨2, _⟩ => xIn m c t pad64
    | ⟨3, _⟩ => iblk m c 3 t
    | ⟨4, _⟩ => iblk m c 4 t
    | ⟨5, _⟩ => iblk m c 5 t
    | ⟨6, _⟩ => oOut m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = aIn m c t pad64 := by dsimp only [dats]
theorem after_1 (c : Dev nD) (t : Fin cfg0.N) : (dats m 0 c).after 1 t = gIn m c t pad1 := by dsimp only [dats]
theorem after_2 (c : Dev nD) (t : Fin cfg0.N) : (dats m 0 c).after 2 t = xIn m c t pad64 := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = oOut m c t := by dsimp only [dats]

/-- The three row-blocked inputs are fetched at every point: the body finds each block padded by whatever the
    buffer held. -/
theorem before_0 (c : Dev nD) (t : Fin cfg0.N) (d) : (dats m 0 c).before 0 t d = aIn m c t d := by
  rw [(dats m 0 c).before_fetched 0 t (fetch0_0 t)]; unfold Dat.fetched Dat.blockOf aIn iblk; rw [A_eq]
theorem before_1 (c : Dev nD) (t : Fin cfg0.N) (d) : (dats m 0 c).before 1 t d = gIn m c t d := by
  rw [(dats m 0 c).before_fetched 1 t (fetch0_1 t)]; unfold Dat.fetched Dat.blockOf gIn iblk; rw [A_eq]
theorem before_2 (c : Dev nD) (t : Fin cfg0.N) (d) : (dats m 0 c).before 2 t d = xIn m c t d := by
  rw [(dats m 0 c).before_fetched 2 t (fetch0_2 t)]; unfold Dat.fetched Dat.blockOf xIn iblk; rw [A_eq]
/-- The weights and the bias are fetched once and never move. -/
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
/-- The result buffer is written back at every point, so the body always finds it fresh. -/
theorem before_6 (c : Dev nD) (t : Fin cfg0.N) (d) : (dats m 0 c).before 6 t d = d :=
  (dats m 0 c).before_out_reset 6 rfl t
    (by by_cases h : t.val = 0
        · exact .inl h
        · exact .inr ⟨h, flush0_6 _⟩) d

/-! ## The body obligation, the result window forgotten

The frame claim says nothing of the result array, so the result's staging buffer is handed to the body at any
contents and taken back at any contents; the other windows are stated as the frame-run theorem asks: the three
row-blocked inputs on the rows their transfers move, the weights and the bias exactly. -/

/-- The one window forgotten: the result's. -/
abbrev fgtOut : Fin cfg0.W → Bool := fun | 0 => false | 1 => false | 2 => false | 3 => false | 4 => false | 5 => false | 6 => true | ⟨_ + 7, h⟩ => absurd h (Nat.not_lt.2 (Nat.le_add_left _ _))

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

set_option maxHeartbeats 1000000 in
/-- The body at any point. -/
theorem sound_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := F) c Set.univ (grid0.coords t) _ _ _ _ _ _ _ _ _ _ _ _ _ _
    (aIn m c t d0) (gIn m c t d1) (xIn m c t d2) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  have ha : ∀ d, win0_0.cut (grid0.coords t) (aIn m c t d) = iblk m c 0 t := fun d => win0_0.cut_fill _ _ _
  have hg : ∀ d, win0_1.cut (grid0.coords t) (gIn m c t d) = iblk m c 1 t := fun d => win0_1.cut_fill _ _ _
  have hx : ∀ d, win0_2.cut (grid0.coords t) (xIn m c t d) = iblk m c 2 t := fun d => win0_2.cut_fill _ _ _
  isplitl [H0]
  · iexists d0; rw [ha]; iexact H0
  isplitl [H1]
  · iexists d1; rw [hg]; iexact H1
  isplitl [H2]
  · iexists d2; rw [hx]; iexact H2
  isplitl [H3]; · iexact H3
  isplitl [H4]; · iexact H4
  isplitl [H5]; · iexact H5
  iexists _; iexact H6

/-- The library's body obligation, at every point. -/
theorem body_obligation (c : Dev nD) :
    BodyObligationLoose (dats (F := F) m 0 c) (defs₀ (F := F)) Variants.none () Set.univ fgtOut := fun t => by
  rw [bigSep_W0, bigSep_W0]
  exact sound_point m c t

/-! ## The run and the frame -/

/-- The proof data read relationally, the result window forgotten. -/
abbrev rdat (c : Dev nD) := (dats (F := F) m 0 c).toRForget fgtOut

set_option backward.isDefEq.respectTransparency.types false in
/-- The frame run: every weakly fair execution terminates without a fault; every input array of the pipeline ends
    as the region found it, and so does every buffer no window stages. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := fun c => (body_obligation m c).toRForget) (hshare := fun c w => (dats m 0 c).share_full (fun _ => rfl) w)
    (howed := fun _ _ => rfl) (V := V m) (hmain := hmain m Variants.none) (hA := A_eq m) (hΦ := fun _ _ => rfl)

/-- An input array's final contents are its contents at the region's entry. -/
theorem arr_in (c : Dev nD) (w : Fin cfg0.W) (hin : (cfg0.win w).isOut = false)
    {X : Buf (Elt F) ((cfg0.win w).arr.view.loc (c.tc : Thread nD τ))} (h : (rdat m c).ArrAt w cfg0.N X) :
    X = V m c (Pipeline.arrRef spec0 w) := by
  rw [Pipeline.RDat.ArrAt_in _ w hin] at h
  exact h.trans (A_eq m c w)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(arr_in m c 2 rfl ((h c).1 2)).trans (V_main_arg0 m c),
      ((h c).2 main_arg1 (Pipeline.mem_restRefs_of main_arg1 (by decide) (by decide))).trans (V_main_arg1 m c),
      (arr_in m c 3 rfl ((h c).1 3)).trans (V_main_arg2 m c),
      (arr_in m c 4 rfl ((h c).1 4)).trans (V_main_arg3 m c),
      ((h c).2 main_arg4 (Pipeline.mem_restRefs_of main_arg4 (by decide) (by decide))).trans (V_main_arg4 m c)⟩) (run_main m ρ)

end Cert.Kernel.Body

end
-- ==== Proof.IdealBody.lean ====
/-
  The body of the combine kernel, run once on whole staging buffers.

  One grid point handles 4096 rows. The body loads the aggregated-neighbour block `a` (4096×64), the degree
  column `g` (4096×1), the feature block `x` (4096×64), the two 64×64 weight matrices and the 1×64 bias row,
  and stores, over the whole 4096×64 result buffer, the single value
      ((a / max(g, 1)) · Wnᵀ + x · Wsᵀ) + b,
  which is the generated payload term `k0_pay1` of the six loaded values. Nothing else is written: the six
  input buffers end holding what they held.
-/
import proofs.«101017_j12481174963003_1_alg».proof.Proof.Gen.KernelIdeal.Frame
import proofs.«101017_j12481174963003_1_alg».proof.Proof.Gen.KernelIdeal.Skeleton
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body touches: each is its whole buffer -/

abbrev rBlk : Rect S4096x64 := Rect.unit (s := S4096x64) ![0, 0] S4096x64.size inb_S4096x64_S4096x64_0_0
abbrev rCol : Rect S4096x1 := Rect.unit (s := S4096x1) ![0, 0] S4096x1.size inb_S4096x1_S4096x1_0_0
abbrev rMat : Rect S64x64 := Rect.unit (s := S64x64) ![0, 0] S64x64.size inb_S64x64_S64x64_0_0
abbrev rRow : Rect S1x64 := Rect.unit (s := S1x64) ![0, 0] S1x64.size inb_S1x64_S1x64_0_0

/-- What the result buffer holds after the body, from what the six input buffers hold: its one store, read
    back as the value stored. -/
def stored (a : Vec F S4096x64 .f32) (g : Vec F S4096x1 .f32) (x : Vec F S4096x64 .f32)
    (wn ws : Vec F S64x64 .f32) (b : Vec F S1x64 .f32) : Vec F S4096x64 .f32 :=
  View.canon [⟨rBlk, k0_pay1 (View.ld a rBlk) (View.ld g rCol) (View.ld x rBlk) (View.ld wn rMat) (View.ld ws rMat) (View.ld b rRow)⟩]

/-- The one store covers the result buffer. -/
theorem stored_cover (p0 : Vec F S4096x64 .f32) (y : S4096x64.Idx) :
    ∃ pc ∈ ([⟨rBlk, p0⟩] : List (View.Piece (Elt F) S4096x64 .f32)), y ∈ pc.1.set :=
  View.cover_of_tiled [⟨rBlk, p0⟩] S4096x64.size (by rfl) y

set_option maxHeartbeats 1000000 in
/-- The body's triple: from the six input buffers at `a g x wn ws b` and the result buffer at anything, the body
    runs to the inputs as they were and the result buffer at `stored a g x wn ws b`. -/
theorem sound_kernel (c : Dev nD) (E : Set ℕ) (i : grid0.Coords)
    (arg1 : Memref sig .tc .vmem S4096x64 .f32) (harg1 : arg1.IsWhole) (arg2 : Memref sig .tc .vmem S4096x1 .f32) (harg2 : arg2.IsWhole)
    (arg3 : Memref sig .tc .vmem S4096x64 .f32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S4096x64 .f32) (harg7 : arg7.IsWhole)
    (a : Vec F S4096x64 .f32) (g : Vec F S4096x1 .f32) (x : Vec F S4096x64 .f32) (wn ws : Vec F S64x64 .f32) (b : Vec F S1x64 .f32)
    (K : PUnit → sProp 𝕄) :
    iprop(owns (c : Thread nD τ) arg1 fullShare a ∗ owns (c : Thread nD τ) arg2 fullShare g ∗ owns (c : Thread nD τ) arg3 fullShare x
        ∗ owns (c : Thread nD τ) arg4 fullShare wn ∗ owns (c : Thread nD τ) arg5 fullShare ws ∗ owns (c : Thread nD τ) arg6 fullShare b
        ∗ (∃ d, owns (c : Thread nD τ) arg7 fullShare d)
        ∗ (iprop(owns (c : Thread nD τ) arg1 fullShare a ∗ owns (c : Thread nD τ) arg2 fullShare g ∗ owns (c : Thread nD τ) arg3 fullShare x
            ∗ owns (c : Thread nD τ) arg4 fullShare wn ∗ owns (c : Thread nD τ) arg5 fullShare ws ∗ owns (c : Thread nD τ) arg6 fullShare b
            ∗ owns (c : Thread nD τ) arg7 fullShare (stored a g x wn ws b)) -∗ K ⟨⟩))
      ⊢ wp frame (wpE (defs₀ (F := F)) Variants.none c none) E
          (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored_cover _)

/-! ## The proof data

At point `t` the three row-blocked inputs arrive just fetched: on the rows of the block that lie inside the
array they hold the array's rows, and on the rows past the array's end (only the last block has any) they hold
padding `d` that nothing names. The weights and the bias arrive as their whole arrays. -/

variable (m : (ℓ : Loc nD τ sig) → Buf (Elt F) ℓ) (ρ : Dev nD → PrngReg)

/-- The aggregated-neighbour block at point `t`, padded by `d` past the array's end. -/
abbrev aIn (c : Dev nD) (t : Fin cfg0.N) (d : S4096x64.Idx → Elt F .f32) : S4096x64.Idx → Elt F .f32 :=
  win0_0.fill (grid0.coords t) d (iblk m c 0 t)
/-- The degree column at point `t`, padded likewise. -/
abbrev gIn (c : Dev nD) (t : Fin cfg0.N) (d : S4096x1.Idx → Elt F .f32) : S4096x1.Idx → Elt F .f32 :=
  win0_1.fill (grid0.coords t) d (iblk m c 1 t)
/-- The feature block at point `t`, padded likewise. -/
abbrev xIn (c : Dev nD) (t : Fin cfg0.N) (d : S4096x64.Idx → Elt F .f32) : S4096x64.Idx → Elt F .f32 :=
  win0_2.fill (grid0.coords t) d (iblk m c 2 t)

/-- A padding the proof picks where it must name one: the zero word. -/
def pad64 : S4096x64.Idx → Elt F .f32 := fun _ => Scalar.ofBits .f32 0#32
def pad1 : S4096x1.Idx → Elt F .f32 := fun _ => Scalar.ofBits .f32 0#32

/-- What the result buffer is said to hold after the body at point `t`: the stored value of the inputs padded
    by zeros. Only its rows inside the array are ever written back. -/
def oOut (c : Dev nD) (t : Fin cfg0.N) : S4096x64.Idx → Elt F .f32 :=
  stored (aIn m c t pad64) (gIn m c t pad1) (xIn m c t pad64) (iblk m c 3 t) (iblk m c 4 t) (iblk m c 5 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => aIn m c t pad64
    | ⟨1, _⟩ => gIn m c t pad1
    | ⟨2, _⟩ => xIn m c t pad64
    | ⟨3, _⟩ => iblk m c 3 t
    | ⟨4, _⟩ => iblk m c 4 t
    | ⟨5, _⟩ => iblk m c 5 t
    | ⟨6, _⟩ => oOut m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = aIn m c t pad64 := by dsimp only [dats]
theorem after_1 (c : Dev nD) (t : Fin cfg0.N) : (dats m 0 c).after 1 t = gIn m c t pad1 := by dsimp only [dats]
theorem after_2 (c : Dev nD) (t : Fin cfg0.N) : (dats m 0 c).after 2 t = xIn m c t pad64 := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = oOut m c t := by dsimp only [dats]

/-- The three row-blocked inputs are fetched at every point: the body finds each block padded by whatever the
    buffer held. -/
theorem before_0 (c : Dev nD) (t : Fin cfg0.N) (d) : (dats m 0 c).before 0 t d = aIn m c t d := by
  rw [(dats m 0 c).before_fetched 0 t (fetch0_0 t)]; unfold Dat.fetched Dat.blockOf aIn iblk; rw [A_eq]
theorem before_1 (c : Dev nD) (t : Fin cfg0.N) (d) : (dats m 0 c).before 1 t d = gIn m c t d := by
  rw [(dats m 0 c).before_fetched 1 t (fetch0_1 t)]; unfold Dat.fetched Dat.blockOf gIn iblk; rw [A_eq]
theorem before_2 (c : Dev nD) (t : Fin cfg0.N) (d) : (dats m 0 c).before 2 t d = xIn m c t d := by
  rw [(dats m 0 c).before_fetched 2 t (fetch0_2 t)]; unfold Dat.fetched Dat.blockOf xIn iblk; rw [A_eq]
/-- The weights and the bias are fetched once and never move. -/
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
/-- The result buffer is written back at every point, so the body always finds it fresh. -/
theorem before_6 (c : Dev nD) (t : Fin cfg0.N) (d) : (dats m 0 c).before 6 t d = d :=
  (dats m 0 c).before_out_reset 6 rfl t
    (by by_cases h : t.val = 0
        · exact .inl h
        · exact .inr ⟨h, flush0_6 _⟩) d

/-! ## The body obligation

Every window but the weights' and the bias's is stated only on the rows its transfers move. For the result that
asks one thing of the arithmetic: a stored row inside the array must not depend on the padding rows of the
inputs. Each stored row is computed from the same row of the three row-blocked inputs, so it does not; the
property is taken here as a hypothesis on the float instance and supplied where the arithmetic is opened. -/

/-- Rows of the stored value inside the array are determined by the input rows inside the array. -/
def RowLocal (F : FTy → Type) [FloatOps F] : Prop :=
  ∀ (t : Fin cfg0.N) (a a' : S4096x64.Idx → Elt F .f32) (g g' : S4096x1.Idx → Elt F .f32) (x x' : S4096x64.Idx → Elt F .f32)
    (wn ws : Vec F S64x64 .f32) (b : Vec F S1x64 .f32),
    win0_0.cut (grid0.coords t) a = win0_0.cut (grid0.coords t) a' →
    win0_1.cut (grid0.coords t) g = win0_1.cut (grid0.coords t) g' →
    win0_2.cut (grid0.coords t) x = win0_2.cut (grid0.coords t) x' →
    win0_6.cut (grid0.coords t) (stored a g x wn ws b) = win0_6.cut (grid0.coords t) (stored a' g' x' wn ws b)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the row-blocked buffers stated on the rows inside the array. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare (win0_6.fill (grid0.coords t) d (win0_6.cut (grid0.coords t) ((dats m 0 c).after 6 t)))))

set_option maxHeartbeats 1000000 in
/-- The body at any point. -/
theorem sound_point (hloc : RowLocal F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := F) c Set.univ (grid0.coords t) _ _ _ _ _ _ _ _ _ _ _ _ _ _
    (aIn m c t d0) (gIn m c t d1) (xIn m c t d2) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  have ha : ∀ d, win0_0.cut (grid0.coords t) (aIn m c t d) = iblk m c 0 t := fun d => win0_0.cut_fill _ _ _
  have hg : ∀ d, win0_1.cut (grid0.coords t) (gIn m c t d) = iblk m c 1 t := fun d => win0_1.cut_fill _ _ _
  have hx : ∀ d, win0_2.cut (grid0.coords t) (xIn m c t d) = iblk m c 2 t := fun d => win0_2.cut_fill _ _ _
  isplitl [H0]
  · iexists d0; rw [ha]; iexact H0
  isplitl [H1]
  · iexists d1; rw [hg]; iexact H1
  isplitl [H2]
  · iexists d2; rw [hx]; iexact H2
  isplitl [H3]; · iexact H3
  isplitl [H4]; · iexact H4
  isplitl [H5]; · iexact H5
  iexists stored (aIn m c t d0) (gIn m c t d1) (xIn m c t d2) (iblk m c 3 t) (iblk m c 4 t) (iblk m c 5 t)
  rw [show oOut m c t = stored (aIn m c t pad64) (gIn m c t pad1) (xIn m c t pad64) (iblk m c 3 t) (iblk m c 4 t) (iblk m c 5 t) from rfl,
    win0_6.fill_congr_cut (grid0.coords t) (hloc t _ _ _ _ _ _ _ _ _ ((ha d0).trans (ha pad64).symm)
      ((hg d1).trans (hg pad1).symm) ((hx d2).trans (hx pad64).symm))]
  iexact H6

/-- The library's body obligation, at every point. -/
theorem body_obligation (hloc : RowLocal F) (c : Dev nD) :
    BodyObligationLoose (dats (F := F) m 0 c) (defs₀ (F := F)) Variants.none () Set.univ := fun t => by
  rw [bigSep_W0, bigSep_W0]
  exact sound_point m hloc c t

end Cert.KernelIdeal.Body

end
-- ==== Proof.IdealRun.lean ====
/-
  The run of the idealized kernel's region and what it leaves.

  With the proof data of the body module the frame-run theorem for pipelined regions applies: every weakly fair
  execution of the program terminates without a fault; the result array ends as its entry contents overwritten,
  point by point, by what each point wrote back, and every other buffer ends as the region found it. The row-locality of the stored value is still a
  hypothesis here.
-/
import proofs.«101017_j12481174963003_1_alg».proof.Proof.IdealBody
import proofs.«101017_j12481174963003_1_alg».proof.Proof.Gen.KernelIdeal.Launch

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (Dat Cfg Window BodyObligation BodyObligationLoose)

variable {F : FTy → Type} [FloatOps F]
variable (m : (ℓ : Loc nD τ sig) → Buf (Elt F) ℓ) (ρ : Dev nD → PrngReg)

set_option backward.isDefEq.respectTransparency.types false in
/-- The frame run: termination, no fault, and every array of the region at what the proof data computes. -/
theorem run_main (hloc : RowLocal F) :
    θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m) (hΦ := fun _ _ => rfl)

/-- The argument arrays end as they began. -/
theorem frame (hloc : RowLocal F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ hloc)

end Cert.KernelIdeal.Body

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Spec.lean ====
/-
  The layer both programs compute, index by index on the extended reals.

  For a table `a : [n, 64]` of summed neighbour features, a degree `dg r` per row, features `x : [n, 64]`, weights
  `wn ws : [64, 64]` stored as [out, in], and a bias `b : [64]`, the entry (r, o) is
      ((∑ k, (a (r, k) / max (dg r) 1) · wn (o, k)) + (∑ k, x (r, k) · ws (o, k))) + b o.
  Division is the extended reals' total division and the sums are finite sums in a commutative monoid, so no
  finiteness of the entries is needed anywhere. Entry (r, o) reads row r of `a` and `x` and the degree of row r
  only: that is what lets a block of rows be computed apart from the others.
-/
import proofs.«101017_j12481174963003_1_alg».proof.Proof.LibDense

noncomputable section

namespace Cert.Spec

open Idealize.ShloMosaic Idealize.ShloMosaic.ValueIdx Cert.LibDense

/-- The f32 word of 1.0, as it is read on the extended reals. The same word stands on both sides, so it is
    never evaluated. -/
abbrev one : EReal := Ideal.ofBits .f32 0x3F800000#32

/-- The mean of the neighbours' features: each summed feature divided by the row's degree, the degree raised
    to at least one. -/
def meanBy {n : ℕ} (a : (⟨2, ![n, 64]⟩ : Shape).Idx → EReal) (dg : Fin n → EReal) : (⟨2, ![n, 64]⟩ : Shape).Idx → EReal :=
  fun p => Ideal.div (a (ix2 (p 0) (p 1))) (max (dg (p 0)) one)

/-- A weight matrix stored [out, in], read as [in, out]. -/
def tr (w : (⟨2, ![64, 64]⟩ : Shape).Idx → EReal) : (⟨2, ![64, 64]⟩ : Shape).Idx → EReal :=
  fun p => w (ix2 (p 1) (p 0))

/-- The layer: mean · Wnᵀ + x · Wsᵀ + b. -/
def layer {n : ℕ} (a : (⟨2, ![n, 64]⟩ : Shape).Idx → EReal) (dg : Fin n → EReal) (x : (⟨2, ![n, 64]⟩ : Shape).Idx → EReal)
    (wn ws : (⟨2, ![64, 64]⟩ : Shape).Idx → EReal) (b : (⟨1, ![64]⟩ : Shape).Idx → EReal) : (⟨2, ![n, 64]⟩ : Shape).Idx → EReal :=
  affine (meanBy a dg) x (tr wn) (tr ws) b

/-- An entry of the layer reads one row of the two row operands, that row's degree, one row of each stored
    weight table and one bias entry: two sets of operands, the row operands of any two heights, that agree
    there give the same entry. -/
theorem layer_congr {n n' : ℕ} (a x : (⟨2, ![n, 64]⟩ : Shape).Idx → EReal) (dg : Fin n → EReal)
    (a' x' : (⟨2, ![n', 64]⟩ : Shape).Idx → EReal) (dg' : Fin n' → EReal)
    (wn ws wn' ws' : (⟨2, ![64, 64]⟩ : Shape).Idx → EReal) (b b' : (⟨1, ![64]⟩ : Shape).Idx → EReal)
    (r : Fin n) (r' : Fin n') (o o' : Fin 64)
    (ha : ∀ k : Fin 64, a (ix2 r k) = a' (ix2 r' k)) (hd : dg r = dg' r')
    (hx : ∀ k : Fin 64, x (ix2 r k) = x' (ix2 r' k))
    (hwn : ∀ k : Fin 64, wn (ix2 o k) = wn' (ix2 o' k)) (hws : ∀ k : Fin 64, ws (ix2 o k) = ws' (ix2 o' k))
    (hb : b (ix1 o) = b' (ix1 o')) :
    layer a dg x wn ws b (ix2 r o) = layer a' dg' x' wn' ws' b' (ix2 r' o') := by
  unfold layer
  refine affine_congr _ x _ x' _ _ _ _ b b' (ix2 r o) (ix2 r' o') (fun k => ?_) hx hwn hws hb
  show Ideal.div (a (ix2 r k)) (max (dg r) one) = Ideal.div (a' (ix2 r' k)) (max (dg' r') one)
  rw [ha k, hd]

end Cert.Spec

end
-- ==== Proof.IdealPay.lean ====
/-
  The stored value of the combine kernel's body, read at an index of its 4096×64 block, on the extended reals.

  Entry (p, o) of what the body stores is the layer of the specification at row p of the block: the two matrix
  products into zero accumulators are row-by-column sums, the transposes read the [out, in] weights as [in, out],
  the degree column is broadcast along the row, the bias row is broadcast down the rows. Consequently a stored
  row depends only on the same row of the three row-blocked inputs.
-/
import proofs.«101017_j12481174963003_1_alg».proof.Proof.IdealBody
import proofs.«101017_j12481174963003_1_alg».proof.Proof.Spec
import Idealize.ShloMosaic.Lib.ValueIdx
import Idealize.ShloMosaic.Lib.Pipeline.Value

noncomputable section

namespace Cert.KernelIdeal.Body

open Cert.KernelIdeal Cert.KernelIdeal.Gen Cert.Spec Cert.LibDense
open Idealize.ShloMosaic Idealize.ShloMosaic.ValueIdx

/-- One whole-buffer store, read back through whole-buffer loads, is the payload of the buffers' contents. -/
theorem stored_eq (a : FVec Ideal S4096x64 .f32) (g : FVec Ideal S4096x1 .f32) (x : FVec Ideal S4096x64 .f32)
    (wn ws : FVec Ideal S64x64 .f32) (b : FVec Ideal S1x64 .f32) :
    stored (F := Ideal) a g x wn ws b = k0_pay1 (F := Ideal) a g x wn ws b := by
  have hz : (![0, 0] : Fin 2 → Nat) = fun _ => 0 := funext fun a => by fin_cases a <;> rfl
  unfold stored
  rw [View.canon_unit_zero hz]
  simp only [View.ld_unit_zero (S := S4096x64) hz, View.ld_unit_zero (S := S4096x1) hz,
    View.ld_unit_zero (S := S64x64) hz, View.ld_unit_zero (S := S1x64) hz]

/-- The degree of row `p` of a block: the block's one-column degree table at (p, 0). -/
abbrev colDeg (g : FVec Ideal S4096x1 .f32) : Fin 4096 → EReal := fun p => g (ix2 p 0)
/-- The bias of a block: its one-row table read along the row. -/
abbrev rowBias (b : FVec Ideal S1x64 .f32) : (⟨1, ![64]⟩ : Shape).Idx → EReal := fun q => b (ix2 0 (q 0))

/-- The divided operand at (p, k): the summed feature over the row's degree raised to at least one. -/
theorem mean_entry (a : FVec Ideal S4096x64 .f32) (g : FVec Ideal S4096x1 .f32) (p : Fin 4096) (k : Fin 64) :
    divf (F := Ideal) (shapeCast S4096x64 a shapeCasts_S4096x64_S4096x64)
      (broadcastTo S4096x64 (maximumf (F := Ideal) (shapeCast S4096x1 g shapeCasts_S4096x1_S4096x1)
        (broadcast S4096x1 (Scalar.ofBits .f32 0x3F800000#32))) broadcasts_S4096x1_S4096x64) (ix2 p k)
      = meanBy a (colDeg g) (ix2 p k) := by
  rw [shapeCast_self, shapeCast_self]
  show Ideal.div (a (ix2 p k)) (broadcastTo S4096x64 (maximumf (F := Ideal) g
      (broadcast S4096x1 (Scalar.ofBits .f32 0x3F800000#32))) broadcasts_S4096x1_S4096x64 (ix2 p k)) = _
  rw [broadcastTo_apply _ broadcasts_S4096x1_S4096x64 (ix2 p k) (ix2 p 0) (fun a => by
    match a with
    | ⟨0, _⟩ => show p.val = if (4096 : Nat) = 1 then 0 else p.val; rw [if_neg (by decide)]
    | ⟨1, _⟩ => show 0 = if (1 : Nat) = 1 then 0 else k.val; rw [if_pos rfl])]
  rfl

/-- A transposed weight at (k, o) is the stored weight at (o, k). -/
theorem tr_entry (w : FVec Ideal S64x64 .f32) (k o : Fin 64) :
    transpose S64x64 [1, 0] w transposes_S64x64_p1_0_S64x64 (ix2 k o) = tr w (ix2 k o) :=
  transpose_apply [1, 0] w transposes_S64x64_p1_0_S64x64 (ix2 k o) (ix2 o k) (fun b => match b with
    | ⟨0, _⟩ => rfl
    | ⟨1, _⟩ => rfl)

/-- The bias row broadcast down the block, at (p, o), is the bias at o. -/
theorem bias_entry (b : FVec Ideal S1x64 .f32) (p : Fin 4096) (o : Fin 64) :
    broadcastTo S4096x64 (shapeCast S1x64 b shapeCasts_S1x64_S1x64) broadcasts_S1x64_S4096x64 (ix2 p o) = rowBias b (ix1 o) := by
  rw [shapeCast_self]
  exact broadcastTo_apply _ broadcasts_S1x64_S4096x64 (ix2 p o) (ix2 0 o) (fun a => by
    match a with
    | ⟨0, _⟩ => show 0 = if (1 : Nat) = 1 then 0 else p.val; rw [if_pos rfl]
    | ⟨1, _⟩ => show o.val = if (64 : Nat) = 1 then 0 else o.val; rw [if_neg (by decide)])

/-- The product of the divided operand with the transposed neighbour weights, at (p, o). -/
theorem mm_mean (a : FVec Ideal S4096x64 .f32) (g : FVec Ideal S4096x1 .f32) (wn : FVec Ideal S64x64 .f32) (p : Fin 4096) (o : Fin 64) :
    matmul (F := Ideal) dot_S4096x64_S64x64_S4096x64_1_0_0_1_n_n none
      (divf (F := Ideal) (shapeCast S4096x64 a shapeCasts_S4096x64_S4096x64)
        (broadcastTo S4096x64 (maximumf (F := Ideal) (shapeCast S4096x1 g shapeCasts_S4096x1_S4096x1)
          (broadcast S4096x1 (Scalar.ofBits .f32 0x3F800000#32))) broadcasts_S4096x1_S4096x64))
      (transpose S64x64 [1, 0] wn transposes_S64x64_p1_0_S64x64) (constant (F := Ideal) S4096x64 .f32 0x00000000#32) (ix2 p o)
      = prod (meanBy a (colDeg g)) (tr wn) (ix2 p o) := by
  refine (matmul_plain (M := 4096) (K := 64) (N := 64) _ _ (ix2 p o)).trans ?_
  unfold prod
  exact Finset.sum_congr rfl fun k _ => congrArg₂ (· * ·) (mean_entry a g p k) (tr_entry wn k o)

/-- The product of the features with the transposed self weights, at (p, o). -/
theorem mm_self (x : FVec Ideal S4096x64 .f32) (ws : FVec Ideal S64x64 .f32) (p : Fin 4096) (o : Fin 64) :
    matmul (F := Ideal) dot_S4096x64_S64x64_S4096x64_1_0_0_1_n_n none x
      (transpose S64x64 [1, 0] ws transposes_S64x64_p1_0_S64x64) (constant (F := Ideal) S4096x64 .f32 0x00000000#32) (ix2 p o)
      = prod x (tr ws) (ix2 p o) := by
  refine (matmul_plain (M := 4096) (K := 64) (N := 64) _ _ (ix2 p o)).trans ?_
  unfold prod
  exact Finset.sum_congr rfl fun k _ => congrArg₂ (· * ·) rfl (tr_entry ws k o)

/-- THE PAYLOAD AT AN INDEX: entry (p, o) of the stored value is the layer at row p of the block. -/
theorem pay_apply (a : FVec Ideal S4096x64 .f32) (g : FVec Ideal S4096x1 .f32) (x : FVec Ideal S4096x64 .f32)
    (wn ws : FVec Ideal S64x64 .f32) (b : FVec Ideal S1x64 .f32) (p : Fin 4096) (o : Fin 64) :
    k0_pay1 (F := Ideal) a g x wn ws b (ix2 p o) = layer a (colDeg g) x wn ws (rowBias b) (ix2 p o) := by
  unfold layer affine
  exact congrArg₂ (· + ·) (congrArg₂ (· + ·) (mm_mean a g wn p o) (mm_self x ws p o)) (bias_entry b p o)

end Cert.KernelIdeal.Body

end
-- ==== Proof.IdealValue.lean ====
/-
  What the idealized kernel leaves in its result array.

  The grid has 25 points; point t handles rows 4096·t … 4096·t + 4095 of the 100000-row arrays, so the last block
  overhangs by 2400 rows: its fetches bring in only the 1696 rows inside the arrays and its write-back moves only
  those rows. A stored row is the layer of the specification at that row of the block, which reads that row of
  the inputs only; a row inside the array is therefore the layer of the whole arrays at its own row number,
  whatever the padding rows held. Every row number r lies in block r / 4096, so the blocks written back cover
  the result array, and it ends holding the layer of the arrays the region found.
-/
import proofs.«101017_j12481174963003_1_alg».proof.Proof.IdealRun
import proofs.«101017_j12481174963003_1_alg».proof.Proof.IdealPay
import Idealize.ShloMosaic.Lib.ValueIdx
import Idealize.ShloMosaic.Lib.Pipeline.Value

set_option maxRecDepth 16384

noncomputable section

namespace Cert.KernelIdeal.Body

open Cert.KernelIdeal Cert.KernelIdeal.Gen Cert.Spec Cert.LibDense
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The schedule, decided over the 25 points -/

/-- The row-blocked windows (the summed features, the degrees, the features, the result) take block (t, 0) at
    point t; the weights and the bias take block (0, 0) at every point. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The rows a transfer of a row-blocked window moves at point t: all 4096, but at the last point the 1696
    inside the array; the four row-blocked windows are cut alike, and no window is cut along the columns. -/
theorem size_facts : ∀ t : Fin cfg0.N,
    win0_6.xsize (grid0.coords t) (0 : Fin 2) = min 4096 (100000 - 4096 * t.val)
    ∧ win0_0.xsize (grid0.coords t) (0 : Fin 2) = win0_6.xsize (grid0.coords t) (0 : Fin 2)
    ∧ win0_1.xsize (grid0.coords t) (0 : Fin 2) = win0_6.xsize (grid0.coords t) (0 : Fin 2)
    ∧ win0_2.xsize (grid0.coords t) (0 : Fin 2) = win0_6.xsize (grid0.coords t) (0 : Fin 2)
    ∧ win0_0.xsize (grid0.coords t) (1 : Fin 2) = 64 ∧ win0_1.xsize (grid0.coords t) (1 : Fin 2) = 1
    ∧ win0_2.xsize (grid0.coords t) (1 : Fin 2) = 64 ∧ win0_6.xsize (grid0.coords t) (1 : Fin 2) = 64 :=
  (by decide +kernel : ∀ t : Fin grid0.N, _)

/-! ## An element of a fetched block is an element of the array

Stated for ANY array contents: the arrays the region finds are long composed terms, and nothing here needs to open them. -/

/-- Row p of a summed-feature block at point t, when the fetch moved it, is row 4096·t + p of the array the block was read from. -/
theorem a_rd (A : S100000x64.Idx → EReal) (t : Fin cfg0.N) (d : S4096x64.Idx → EReal) (p : Fin 4096) (k : Fin 64) (i : S100000x64.Idx)
    (hp : p.val < win0_6.xsize (grid0.coords t) (0 : Fin 2)) (h0 : (i 0).val = 4096 * t.val + p.val) (h1 : (i 1).val = k.val) :
    win0_0.fill (grid0.coords t) d (((cfg0.win 0).blk t).view.read (Elt Ideal) A) (ix2 p k) = A i := by
  have hp' : p.val < win0_0.xsize (grid0.coords t) (0 : Fin 2) := by rw [(size_facts t).2.1]; exact hp
  have hk' : k.val < win0_0.xsize (grid0.coords t) (1 : Fin 2) := by rw [(size_facts t).2.2.2.2.1]; exact k.isLt
  have ei : win0_0.xinj (grid0.coords t) (fun a => match a with | ⟨0, _⟩ => ⟨p.val, hp'⟩ | ⟨1, _⟩ => ⟨k.val, hk'⟩) = ix2 p k :=
    funext fun a => by match a with | ⟨0, _⟩ => rfl | ⟨1, _⟩ => rfl
  rw [← ei, win0_0.fill_xinj]
  show A (((cfg0.win 0).blk t).view.emb (fun a => match a with | ⟨0, _⟩ => ⟨p.val, hp'⟩ | ⟨1, _⟩ => ⟨k.val, hk'⟩)) = A i
  refine congrArg A (funext fun a => Fin.ext ?_)
  match a with
  | ⟨0, _⟩ =>
    show win0_0.index t (0 : Fin 2) * 4096 + 1 * p.val = (i 0).val
    rw [(index_facts t).1, h0]; omega
  | ⟨1, _⟩ =>
    show win0_0.index t (1 : Fin 2) * 64 + 1 * k.val = (i 1).val
    rw [(index_facts t).2.1, h1]; omega

/-- Row p of a degree-column block at point t, when the fetch moved it, is row 4096·t + p of the column array. -/
theorem g_rd (A : S100000x1.Idx → EReal) (t : Fin cfg0.N) (d : S4096x1.Idx → EReal) (p : Fin 4096) (i : S100000x1.Idx)
    (hp : p.val < win0_6.xsize (grid0.coords t) (0 : Fin 2)) (h0 : (i 0).val = 4096 * t.val + p.val) :
    win0_1.fill (grid0.coords t) d (((cfg0.win 1).blk t).view.read (Elt Ideal) A) (ix2 p 0) = A i := by
  have hp' : p.val < win0_1.xsize (grid0.coords t) (0 : Fin 2) := by rw [(size_facts t).2.2.1]; exact hp
  have hk' : 0 < win0_1.xsize (grid0.coords t) (1 : Fin 2) := by rw [(size_facts t).2.2.2.2.2.1]; exact Nat.one_pos
  have ei : win0_1.xinj (grid0.coords t) (fun a => match a with | ⟨0, _⟩ => ⟨p.val, hp'⟩ | ⟨1, _⟩ => ⟨0, hk'⟩) = ix2 p 0 :=
    funext fun a => by match a with | ⟨0, _⟩ => rfl | ⟨1, _⟩ => rfl
  rw [← ei, win0_1.fill_xinj]
  show A (((cfg0.win 1).blk t).view.emb (fun a => match a with | ⟨0, _⟩ => ⟨p.val, hp'⟩ | ⟨1, _⟩ => ⟨0, hk'⟩)) = A i
  refine congrArg A (funext fun a => Fin.ext ?_)
  match a with
  | ⟨0, _⟩ =>
    show win0_1.index t (0 : Fin 2) * 4096 + 1 * p.val = (i 0).val
    rw [(index_facts t).2.2.1, h0]; omega
  | ⟨1, _⟩ =>
    show win0_1.index t (1 : Fin 2) * 1 + 1 * 0 = (i 1).val
    have hi1 : (i 1).val < 1 := (i 1).isLt; rw [(index_facts t).2.2.2.1]; omega

/-- Row p of a feature block at point t, when the fetch moved it, is row 4096·t + p of the array. -/
theorem x_rd (A : S100000x64.Idx → EReal) (t : Fin cfg0.N) (d : S4096x64.Idx → EReal) (p : Fin 4096) (k : Fin 64) (i : S100000x64.Idx)
    (hp : p.val < win0_6.xsize (grid0.coords t) (0 : Fin 2)) (h0 : (i 0).val = 4096 * t.val + p.val) (h1 : (i 1).val = k.val) :
    win0_2.fill (grid0.coords t) d (((cfg0.win 2).blk t).view.read (Elt Ideal) A) (ix2 p k) = A i := by
  have hp' : p.val < win0_2.xsize (grid0.coords t) (0 : Fin 2) := by rw [(size_facts t).2.2.2.1]; exact hp
  have hk' : k.val < win0_2.xsize (grid0.coords t) (1 : Fin 2) := by rw [(size_facts t).2.2.2.2.2.2.1]; exact k.isLt
  have ei : win0_2.xinj (grid0.coords t) (fun a => match a with | ⟨0, _⟩ => ⟨p.val, hp'⟩ | ⟨1, _⟩ => ⟨k.val, hk'⟩) = ix2 p k :=
    funext fun a => by match a with | ⟨0, _⟩ => rfl | ⟨1, _⟩ => rfl
  rw [← ei, win0_2.fill_xinj]
  show A (((cfg0.win 2).blk t).view.emb (fun a => match a with | ⟨0, _⟩ => ⟨p.val, hp'⟩ | ⟨1, _⟩ => ⟨k.val, hk'⟩)) = A i
  refine congrArg A (funext fun a => Fin.ext ?_)
  match a with
  | ⟨0, _⟩ =>
    show win0_2.index t (0 : Fin 2) * 4096 + 1 * p.val = (i 0).val
    rw [(index_facts t).2.2.2.2.1, h0]; omega
  | ⟨1, _⟩ =>
    show win0_2.index t (1 : Fin 2) * 64 + 1 * k.val = (i 1).val
    rw [(index_facts t).2.2.2.2.2.1, h1]; omega

/-- The weights' and the bias's blocks are their whole arrays. -/
theorem wn_rd (A : S64x64.Idx → EReal) (t : Fin cfg0.N) (o k : Fin 64) :
    ((cfg0.win 3).blk t).view.read (Elt Ideal) A (ix2 o k) = A (ix2 o k) := by
  show A (((cfg0.win 3).blk t).view.emb (ix2 o k)) = A (ix2 o k)
  refine congrArg A (funext fun a => Fin.ext ?_)
  match a with
  | ⟨0, _⟩ =>
    show win0_3.index t (0 : Fin 2) * 64 + 1 * o.val = o.val
    rw [(index_facts t).2.2.2.2.2.2.2.2.1]; omega
  | ⟨1, _⟩ =>
    show win0_3.index t (1 : Fin 2) * 64 + 1 * k.val = k.val
    rw [(index_facts t).2.2.2.2.2.2.2.2.2.1]; omega

theorem ws_rd (A : S64x64.Idx → EReal) (t : Fin cfg0.N) (o k : Fin 64) :
    ((cfg0.win 4).blk t).view.read (Elt Ideal) A (ix2 o k) = A (ix2 o k) := by
  show A (((cfg0.win 4).blk t).view.emb (ix2 o k)) = A (ix2 o k)
  refine congrArg A (funext fun a => Fin.ext ?_)
  match a with
  | ⟨0, _⟩ =>
    show win0_4.index t (0 : Fin 2) * 64 + 1 * o.val = o.val
    rw [(index_facts t).2.2.2.2.2.2.2.2.2.2.1]; omega
  | ⟨1, _⟩ =>
    show win0_4.index t (1 : Fin 2) * 64 + 1 * k.val = k.val
    rw [(index_facts t).2.2.2.2.2.2.2.2.2.2.2.1]; omega

theorem b_rd (A : S1x64.Idx → EReal) (t : Fin cfg0.N) (k : Fin 64) :
    ((cfg0.win 5).blk t).view.read (Elt Ideal) A (ix2 (0 : Fin 1) k) = A (ix2 (0 : Fin 1) k) := by
  show A (((cfg0.win 5).blk t).view.emb (ix2 (0 : Fin 1) k)) = A (ix2 (0 : Fin 1) k)
  refine congrArg A (funext fun a => Fin.ext ?_)
  match a with
  | ⟨0, _⟩ =>
    show win0_5.index t (0 : Fin 2) * 1 + 1 * 0 = 0
    rw [(index_facts t).2.2.2.2.2.2.2.2.2.2.2.2.1]
  | ⟨1, _⟩ =>
    show win0_5.index t (1 : Fin 2) * 64 + 1 * k.val = k.val
    rw [(index_facts t).2.2.2.2.2.2.2.2.2.2.2.2.2]; omega

/-! ## Rows inside the array do not depend on the padding -/

/-- A moved index of the result block, by coordinates. -/
theorem xinj6 (t : Fin cfg0.N) (j : (win0_6.xblock (grid0.coords t)).Idx) :
    ∃ (p : Fin 4096) (o : Fin 64), win0_6.xinj (grid0.coords t) j = ix2 p o ∧ p.val = (j (0 : Fin 2)).val ∧ o.val = (j (1 : Fin 2)).val
      ∧ p.val < win0_6.xsize (grid0.coords t) (0 : Fin 2) :=
  ⟨win0_6.xinj (grid0.coords t) j 0, win0_6.xinj (grid0.coords t) j 1, eq_ix2 _, rfl, rfl, (j (0 : Fin 2)).isLt⟩
theorem rowLocal : RowLocal Ideal := by
  intro t a a' g g' x x' wn ws b h0 h1 h2
  funext j
  obtain ⟨p, o, hj, hp0, -, hp⟩ := xinj6 t j
  show stored a g x wn ws b (win0_6.xinj (grid0.coords t) j) = stored a' g' x' wn ws b (win0_6.xinj (grid0.coords t) j)
  rw [hj, stored_eq, stored_eq, pay_apply, pay_apply]
  have hp0' : p.val < win0_0.xsize (grid0.coords t) (0 : Fin 2) := by rw [(size_facts t).2.1]; exact hp
  have hp1' : p.val < win0_1.xsize (grid0.coords t) (0 : Fin 2) := by rw [(size_facts t).2.2.1]; exact hp
  have hp2' : p.val < win0_2.xsize (grid0.coords t) (0 : Fin 2) := by rw [(size_facts t).2.2.2.1]; exact hp
  refine layer_congr a x (colDeg g) a' x' (colDeg g') wn ws wn ws (rowBias b) (rowBias b) p p o o
    (fun k => ?_) ?_ (fun k => ?_) (fun _ => rfl) (fun _ => rfl) rfl
  · have hk : k.val < win0_0.xsize (grid0.coords t) (1 : Fin 2) := by rw [(size_facts t).2.2.2.2.1]; exact k.isLt
    have e := congrFun h0 (fun a => match a with | ⟨0, _⟩ => ⟨p.val, hp0'⟩ | ⟨1, _⟩ => ⟨k.val, hk⟩)
    have ei : win0_0.xinj (grid0.coords t) (fun a => match a with | ⟨0, _⟩ => ⟨p.val, hp0'⟩ | ⟨1, _⟩ => ⟨k.val, hk⟩) = ix2 p k :=
      funext fun a => by match a with | ⟨0, _⟩ => rfl | ⟨1, _⟩ => rfl
    show a (ix2 p k) = a' (ix2 p k)
    rw [← ei]; exact e
  · have hk : 0 < win0_1.xsize (grid0.coords t) (1 : Fin 2) := by rw [(size_facts t).2.2.2.2.2.1]; exact Nat.one_pos
    have e := congrFun h1 (fun a => match a with | ⟨0, _⟩ => ⟨p.val, hp1'⟩ | ⟨1, _⟩ => ⟨0, hk⟩)
    have ei : win0_1.xinj (grid0.coords t) (fun a => match a with | ⟨0, _⟩ => ⟨p.val, hp1'⟩ | ⟨1, _⟩ => ⟨0, hk⟩) = ix2 p 0 :=
      funext fun a => by match a with | ⟨0, _⟩ => rfl | ⟨1, _⟩ => rfl
    show g (ix2 p 0) = g' (ix2 p 0)
    rw [← ei]; exact e
  · have hk : k.val < win0_2.xsize (grid0.coords t) (1 : Fin 2) := by rw [(size_facts t).2.2.2.2.2.2.1]; exact k.isLt
    have e := congrFun h2 (fun a => match a with | ⟨0, _⟩ => ⟨p.val, hp2'⟩ | ⟨1, _⟩ => ⟨k.val, hk⟩)
    have ei : win0_2.xinj (grid0.coords t) (fun a => match a with | ⟨0, _⟩ => ⟨p.val, hp2'⟩ | ⟨1, _⟩ => ⟨k.val, hk⟩) = ix2 p k :=
      funext fun a => by match a with | ⟨0, _⟩ => rfl | ⟨1, _⟩ => rfl
    show x (ix2 p k) = x' (ix2 p k)
    rw [← ei]; exact e

/-! ## What point t writes back is the layer of the arrays, read through the point's block -/

/-- The layer of six arrays as the region finds them: the summed features, the degree column, the features, the
    two stored weight tables and the bias row. -/
def layerOf (A : S100000x64.Idx → EReal) (Dc : S100000x1.Idx → EReal) (X : S100000x64.Idx → EReal)
    (WN WS : S64x64.Idx → EReal) (B : S1x64.Idx → EReal) : S100000x64.Idx → EReal :=
  layer A (fun r => Dc (ix2 r 0)) X WN WS (fun q => B (ix2 0 (q 0)))

/-- For ANY six arrays: the stored value of their blocks at point t (the row-blocked ones padded by anything),
    cut to the rows the write-back moves, is the layer of the arrays read through the result's block at t. -/
theorem flushed_abs (A : S100000x64.Idx → EReal) (Dc : S100000x1.Idx → EReal) (X : S100000x64.Idx → EReal)
    (WN WS : S64x64.Idx → EReal) (B : S1x64.Idx → EReal) (t : Fin cfg0.N)
    (d0 : S4096x64.Idx → EReal) (d1 : S4096x1.Idx → EReal) (d2 : S4096x64.Idx → EReal) :
    win0_6.cut (grid0.coords t)
      (stored (F := Ideal) (win0_0.fill (grid0.coords t) d0 (((cfg0.win 0).blk t).view.read (Elt Ideal) A))
        (win0_1.fill (grid0.coords t) d1 (((cfg0.win 1).blk t).view.read (Elt Ideal) Dc))
        (win0_2.fill (grid0.coords t) d2 (((cfg0.win 2).blk t).view.read (Elt Ideal) X))
        (((cfg0.win 3).blk t).view.read (Elt Ideal) WN) (((cfg0.win 4).blk t).view.read (Elt Ideal) WS)
        (((cfg0.win 5).blk t).view.read (Elt Ideal) B))
      = ((cfg0.win 6).blk t).view.read (Elt Ideal) (layerOf A Dc X WN WS B) := by
  funext j
  obtain ⟨p, o, hj, hp0, ho0, hp⟩ := xinj6 t j
  have ht : t.val < 25 := t.isLt
  have hsz := (size_facts t).1
  have hrow : 4096 * t.val + p.val < 100000 := by
    have : p.val < min 4096 (100000 - 4096 * t.val) := hsz ▸ hp
    omega
  have he : ((cfg0.win 6).blk t).view.emb j = ix2 (⟨4096 * t.val + p.val, hrow⟩ : Fin 100000) o := by
    funext a; apply Fin.ext
    match a with
    | ⟨0, _⟩ =>
      show win0_6.index t (0 : Fin 2) * 4096 + 1 * (j (0 : Fin 2)).val = 4096 * t.val + p.val
      rw [(index_facts t).2.2.2.2.2.2.1, hp0]; omega
    | ⟨1, _⟩ =>
      show win0_6.index t (1 : Fin 2) * 64 + 1 * (j (1 : Fin 2)).val = o.val
      rw [(index_facts t).2.2.2.2.2.2.2.1, ho0]; omega
  show stored (F := Ideal) _ _ _ _ _ _ (win0_6.xinj (grid0.coords t) j) = layerOf A Dc X WN WS B (((cfg0.win 6).blk t).view.emb j)
  rw [hj, he, stored_eq, pay_apply]
  unfold layerOf
  exact layer_congr _ _ _ A X (fun r => Dc (ix2 r 0)) _ _ WN WS _ (fun q => B (ix2 0 (q 0))) p ⟨4096 * t.val + p.val, hrow⟩ o o
    (fun k => a_rd A t d0 p k (ix2 ⟨4096 * t.val + p.val, hrow⟩ k) hp rfl rfl)
    (g_rd Dc t d1 p (ix2 ⟨4096 * t.val + p.val, hrow⟩ 0) hp rfl)
    (fun k => x_rd X t d2 p k (ix2 ⟨4096 * t.val + p.val, hrow⟩ k) hp rfl rfl)
    (fun k => wn_rd WN t o k) (fun k => ws_rd WS t o k) (b_rd B t o)

/-! ## The blocks written back cover the result array -/

/-- An index of the result array is in point t's block iff, on each axis, it lies in the block's part inside
    the array. -/
theorem mem_blk (t : Fin cfg0.N) (i : S100000x64.Idx) :
    i ∈ ((cfg0.win 6).blk t).view.set ↔ ∀ a : Fin 2, win0_6.index t a * S4096x64.size a ≤ (i a).val
      ∧ (i a).val < win0_6.index t a * S4096x64.size a + win0_6.xsize (grid0.coords t) a := by
  show i ∈ ((View.whole main_v20).slice (win0_6.rect t)).set ↔ _
  rw [View.set_slice_whole, Rect.mem_set_unit]
  exact Iff.rfl

/-- Row r lies in the block of point r / 4096, cut or not. -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have ht : (i 0).val / 4096 < 25 := by omega
  obtain ⟨t0, ht0⟩ : ∃ t0 : Fin cfg0.N, t0.val = (i 0).val / 4096 := ⟨⟨(i 0).val / 4096, ht⟩, rfl⟩
  refine ⟨t0, flush0_6 t0, (mem_blk t0 i).mpr fun a => ?_⟩
  have hix := index_facts t0
  have hsz := size_facts t0
  match a with
  | ⟨0, _⟩ =>
    show win0_6.index t0 (0 : Fin 2) * 4096 ≤ (i 0).val
      ∧ (i 0).val < win0_6.index t0 (0 : Fin 2) * 4096 + win0_6.xsize (grid0.coords t0) (0 : Fin 2)
    rw [hix.2.2.2.2.2.2.1, hsz.1, ht0]
    omega
  | ⟨1, _⟩ =>
    show win0_6.index t0 (1 : Fin 2) * 64 ≤ (i 1).val
      ∧ (i 1).val < win0_6.index t0 (1 : Fin 2) * 64 + win0_6.xsize (grid0.coords t0) (1 : Fin 2)
    rw [hix.2.2.2.2.2.2.2.1, hsz.2.2.2.2.2.2.2]
    omega

end Cert.KernelIdeal.Body

end
-- ==== Proof.IdealFinal.lean ====
/-
  The idealized kernel's result, as a function of the argument arrays.

  The region finds six arrays: the summed neighbour features and the degree column, which the program's own host
  operations computed from the features and the edge list before the region; the features and the two weight
  tables, which are arguments; and the bias reshaped to one row. What each point writes back is the layer of
  those arrays read through its block, and the blocks cover the result, so the result array ends as the layer.
  The host operations that produce the summed features and the degrees are the ones the reference program
  applies too; they are named by the reference's own stage functions and never opened.
-/
import proofs.«101017_j12481174963003_1_alg».proof.Proof.IdealValue
import proofs.«101017_j12481174963003_1_alg».proof.Proof.Gen.ReferenceIdeal.Read
import Idealize.ShloMosaic.Lib.StableHlo.Run

set_option maxRecDepth 16384

noncomputable section

namespace Cert.KernelIdeal.Body

open Cert.KernelIdeal Cert.KernelIdeal.Gen Cert.Spec Cert.LibDense
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The layer of the six arrays as the region finds them. -/
def GV (c : Dev nD) : S100000x64.Idx → EReal :=
  layerOf (V m c main_v13) (V m c main_v18) (V m c main_arg0) (V m c main_arg2) (V m c main_arg3) (V m c main_v19)

/-- Each window's array is the buffer its window names. -/
theorem arr0 (c : Dev nD) : V m c (Pipeline.arrRef spec0 0) = V m c main_v13 := rfl
theorem arr1 (c : Dev nD) : V m c (Pipeline.arrRef spec0 1) = V m c main_v18 := rfl
theorem arr2 (c : Dev nD) : V m c (Pipeline.arrRef spec0 2) = V m c main_arg0 := rfl
theorem arr3 (c : Dev nD) : V m c (Pipeline.arrRef spec0 3) = V m c main_arg2 := rfl
theorem arr4 (c : Dev nD) : V m c (Pipeline.arrRef spec0 4) = V m c main_arg3 := rfl
theorem arr5 (c : Dev nD) : V m c (Pipeline.arrRef spec0 5) = V m c main_v19 := rfl

/-- What point t writes back is the layer read through t's block. -/
theorem flushed_eq (c : Dev nD) (t : Fin cfg0.N) :
    (dats m 0 c).flushed 6 t = ((cfg0.win 6).blk t).view.read (Elt Ideal) (GV m c) := by
  show win0_6.cut (grid0.coords t) ((dats m 0 c).after 6 t) = _
  rw [after_6]
  unfold oOut GV aIn gIn xIn iblk
  rw [arr0, arr1, arr2, arr3, arr4, arr5]
  generalize V m c main_v13 = A0
  generalize V m c main_v18 = A1
  generalize V m c main_arg0 = A2
  generalize V m c main_arg2 = A3
  generalize V m c main_arg3 = A4
  generalize V m c main_v19 = A5
  exact flushed_abs A0 A1 A2 A3 A4 A5 t (pad64 (F := Ideal)) (pad1 (F := Ideal)) (pad64 (F := Ideal))

/-- The result array after the run. -/
theorem final (c : Dev nD) : (dats m 0 c).arrAt 6 cfg0.N = GV m c :=
  (dats m 0 c).arrAt_eq_of_cover 6 (GV m c) (fun t _ => flushed_eq m c t) covered

/-! ## The arrays the region finds, through the arguments

The host operations before the region are the reference program's first operations, on the same arguments: their
results are named by the reference's stage functions. -/

/-- The summed neighbour features the region finds. -/
theorem V13 (c : Dev nD) : (V m c main_v13 : S100000x64.Idx → EReal)
    = Cert.ReferenceIdeal.Read.val_main_v13 (F := Ideal) (m ((c.tc : Thread nD τ).loc main_arg0)) (m ((c.tc : Thread nD τ).loc main_arg1)) := by
  dsimp only [V, hostOps0]; after_results; rfl

/-- The degree column the region finds: the degrees, one per row. -/
theorem V18 (c : Dev nD) : (V m c main_v18 : S100000x1.Idx → EReal)
    = broadcastInDim S100000x1 ![0] bcast_S100000_S100000x1_0
        (Cert.ReferenceIdeal.Read.val_main_v17 (F := Ideal) (m ((c.tc : Thread nD τ).loc main_arg1))) := by
  dsimp only [V, hostOps0]; after_results; rfl

/-- The bias row the region finds: the bias, reshaped. -/
theorem V19 (c : Dev nD) : (V m c main_v19 : S1x64.Idx → EReal)
    = shapeCast S1x64 (m ((c.tc : Thread nD τ).loc main_arg4)) shapeCasts_S64_S1x64 := by
  dsimp only [V, hostOps0]; after_results; rfl

/-- The kernel's result as the layer of the arguments: the summed features and the degrees named as stages. -/
def resultOf (x0 : S100000x64.Idx → EReal) (x1 : (⟨S2x1250000, .i32⟩ : BufTy).Contents (Elt Ideal))
    (x2 x3 : S64x64.Idx → EReal) (x4 : S64.Idx → EReal) : S100000x64.Idx → EReal :=
  layer (Cert.ReferenceIdeal.Read.val_main_v13 (F := Ideal) x0 x1)
    (fun r => Cert.ReferenceIdeal.Read.val_main_v17 (F := Ideal) x1 (ix1 r)) x0 x2 x3 x4

theorem GV_eq (c : Dev nD) :
    GV m c = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold GV layerOf resultOf
  rw [V13 m c, V18 m c, V19 m c, V_main_arg0 m c, V_main_arg2 m c, V_main_arg3 m c]
  have hd : (fun r : Fin 100000 => broadcastInDim S100000x1 ![0] bcast_S100000_S100000x1_0
        (Cert.ReferenceIdeal.Read.val_main_v17 (F := Ideal) (m ((c.tc : Thread nD τ).loc main_arg1))) (ix2 r 0))
      = fun r => Cert.ReferenceIdeal.Read.val_main_v17 (F := Ideal) (m ((c.tc : Thread nD τ).loc main_arg1)) (ix1 r) :=
    funext fun r => broadcastInDim_apply _ bcast_S100000_S100000x1_0 _ (ix2 r 0) (ix1 r) (fun a => match a with
      | ⟨0, _⟩ => by show r.val = if (100000 : Nat) = 1 then 0 else r.val; rw [if_neg (by decide)])
  have hb : (fun q : (⟨1, ![64]⟩ : Shape).Idx => shapeCast S1x64 (m ((c.tc : Thread nD τ).loc main_arg4)) shapeCasts_S64_S1x64 (ix2 0 (q 0)))
      = (m ((c.tc : Thread nD τ).loc main_arg4)) :=
    funext fun q => (shapeCast_addUnit_apply ![64] _ shapeCasts_S64_S1x64 (ix2 0 (q 0))).trans
      (congrArg _ (funext fun a => match a with | ⟨0, _⟩ => rfl))
  rw [hd, hb]

/-! ## The run, with the result named -/

/-- Every weakly fair execution of the idealized kernel terminates without a fault; the result array ends as the
    layer of the arguments and the arguments end unchanged. -/
theorem run_value : θ_run defs (onTc (τ := τ) (main (F := Ideal))) ⟨m, fun _ => 0, ρ⟩ (fun r => ∀ c : Dev nD,
      r.2.mem ((c.tc : Thread nD τ).loc main_v20)
        = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).1 6).trans (final m c)).trans (GV_eq m c),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩)
    (run_main m ρ rowLocal)

end Cert.KernelIdeal.Body

end
-- ==== Proof.RefValue.lean ====
/-
  The reference's result is the layer of the specification.

  The reference computes the summed neighbour features `A` and the degrees `D` by a gather and two
  scatter-adds, which are not opened here: they enter as the two stages they are. From there on every operation
  reads one element of each operand: the degree is raised to at least one and broadcast along the row, the
  summed features are divided by it, the two [out, in] weight tables are transposed, the two products are
  row-by-column sums, and the bias is broadcast down the rows. Entry (r, o) is therefore the layer at (r, o).
-/
import proofs.«101017_j12481174963003_1_alg».proof.Proof.Gen.ReferenceIdeal.Read
import proofs.«101017_j12481174963003_1_alg».proof.Proof.Spec
import Idealize.ShloMosaic.Lib.ValueIdx

noncomputable section

namespace Cert.ReferenceIdeal.RefValue

open Cert.ReferenceIdeal Cert.ReferenceIdeal.Read Cert.Spec Cert.LibDense
open Idealize.ShloMosaic Idealize.ShloMosaic.ValueIdx

/-- The degrees as a function of the row number. -/
abbrev degOf (x1 : (⟨S2x1250000, .i32⟩ : BufTy).Contents (Elt Ideal)) : Fin 100000 → EReal :=
  fun r => val_main_v17 (F := Ideal) x1 (ix1 r)

/-! The composed index functions of the generated read lemmas, at (r, o) and a contraction index k. -/

theorem lidx24 (r : Fin 100000) (o k : Fin 64) : lidx_main_v24 (ix2 r o) k = ix2 r k :=
  funext fun a => by match a with | ⟨0, _⟩ => rfl | ⟨1, _⟩ => rfl
theorem ridx24 (r : Fin 100000) (o k : Fin 64) : idx_main_v23 (ridx_main_v24 (ix2 r o) k) = ix2 o k :=
  funext fun a => by match a with | ⟨0, _⟩ => rfl | ⟨1, _⟩ => rfl
theorem lidx26 (r : Fin 100000) (o k : Fin 64) : lidx_main_v26 (ix2 r o) k = ix2 r k :=
  funext fun a => by match a with | ⟨0, _⟩ => rfl | ⟨1, _⟩ => rfl
theorem ridx26 (r : Fin 100000) (o k : Fin 64) : idx_main_v25 (ridx_main_v26 (ix2 r o) k) = ix2 o k :=
  funext fun a => by match a with | ⟨0, _⟩ => rfl | ⟨1, _⟩ => rfl
theorem idxDeg (r : Fin 100000) (k : Fin 64) : idx_main_v20 (idx_main_v21 (ix2 r k)) = ix1 r :=
  funext fun a => by match a with | ⟨0, _⟩ => rfl
theorem idxBias (r : Fin 100000) (o : Fin 64) : idx_main_v28 (idx_main_v29 (ix2 r o)) = ix1 o :=
  funext fun a => by match a with | ⟨0, _⟩ => rfl

/-- The divided operand at (r, k). -/
theorem mean_entry (x0 : (⟨S100000x64, .f32⟩ : BufTy).Contents (Elt Ideal)) (x1 : (⟨S2x1250000, .i32⟩ : BufTy).Contents (Elt Ideal))
    (r : Fin 100000) (k : Fin 64) :
    val_main_v22 (F := Ideal) x0 x1 (ix2 r k) = meanBy (val_main_v13 (F := Ideal) x0 x1) (degOf x1) (ix2 r k) := by
  rw [val_main_v22_apply, val_main_v21_apply, val_main_v20_apply, val_main_v19_apply, val_main_v18_apply,
    val_main_cst_3_apply, idxDeg]
  rfl

/-- THE REFERENCE IS THE LAYER. -/
theorem ref_is_layer (x0 : (⟨S100000x64, .f32⟩ : BufTy).Contents (Elt Ideal)) (x1 : (⟨S2x1250000, .i32⟩ : BufTy).Contents (Elt Ideal))
    (x2 x3 : (⟨S64x64, .f32⟩ : BufTy).Contents (Elt Ideal)) (x4 : (⟨S64, .f32⟩ : BufTy).Contents (Elt Ideal)) :
    val_main_v30 (F := Ideal) x0 x1 x2 x3 x4
      = layer (val_main_v13 (F := Ideal) x0 x1) (degOf x1) x0 x2 x3 x4 := by
  funext i
  obtain ⟨r, o, rfl⟩ : ∃ (r : Fin 100000) (o : Fin 64), i = ix2 r o := ⟨i 0, i 1, eq_ix2 i⟩
  rw [val_main_v30_apply, val_main_v27_apply, val_main_v24_apply, val_main_v26_apply, val_main_v29_apply, val_main_v28_apply,
    idxBias]
  unfold layer affine prod
  refine congrArg₂ (· + ·) (congrArg₂ (· + ·)
    (Finset.sum_congr rfl fun k _ => congrArg₂ (· * ·) ?_ ?_) (Finset.sum_congr rfl fun k _ => congrArg₂ (· * ·) ?_ ?_)) rfl
  · rw [lidx24]; exact mean_entry x0 x1 r k
  · rw [val_main_v23_apply, ridx24]; rfl
  · rw [lidx26]
  · rw [val_main_v25_apply, ridx26]; rfl

end Cert.ReferenceIdeal.RefValue

end
-- ==== Proof.lean ====
/-
  A mean-aggregation graph layer: the kernel against its plain reference, on the extended reals.

  Both programs first sum, for every node, the features of its in-neighbours (a gather by the edges' sources and a
  scatter-add by their targets) and count its in-edges; these host operations are the same in the two programs.
  The reference then divides each summed row by max(degree, 1), multiplies by the transposed neighbour weights,
  adds the features times the transposed self weights, and adds the bias. The kernel does the same in blocks of
  4096 rows on a grid of 25 points, the last block overhanging the 100000 rows by 2400.

  Entry (r, o) of either result is
      ((∑ k, (A (r, k) / max (D r) 1) · Wn (o, k)) + (∑ k, X (r, k) · Ws (o, k))) + b o,
  where A is the summed features and D the degree. The two sides are the SAME expression, term by term and in the
  same grouping; only the arrangement in blocks differs, and an entry reads its own row only. So no algebraic law
  that could fail at an infinity is used, and the finiteness of the inputs is never opened.

  The frames: the word-level kernel's run is taken with the result's staging buffer forgotten (the frame says
  nothing of the result); the idealized kernel's run names what every point writes back; the reference's run is
  its generated run with the result dropped. The idealization rewrote no operation, so there is nothing to
  preserve.
-/
import proofs.«101017_j12481174963003_1_alg».proof.Defs
import proofs.«101017_j12481174963003_1_alg».proof.Proof.Gen.Kernel
import proofs.«101017_j12481174963003_1_alg».proof.Proof.Gen.KernelIdeal
import proofs.«101017_j12481174963003_1_alg».proof.Proof.Gen.ReferenceIdeal
import proofs.«101017_j12481174963003_1_alg».proof.Proof.Gen.Pre_finite_inputs
import proofs.«101017_j12481174963003_1_alg».proof.Proof.Gen.ReferenceIdeal.Run
import proofs.«101017_j12481174963003_1_alg».proof.Proof.Gen.ReferenceIdeal.Read
import proofs.«101017_j12481174963003_1_alg».proof.Proof.WordFrame
import proofs.«101017_j12481174963003_1_alg».proof.Proof.IdealFinal
import proofs.«101017_j12481174963003_1_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_word : Cert.frame_Kernel := fun m ρ _ => Cert.Kernel.Body.frame (F := Bits) m ρ

/-- So does the idealized kernel. -/
theorem frame_ideal : Cert.frame_KernelIdeal := fun m ρ _ =>
  Cert.KernelIdeal.Body.frame (F := Ideal) m ρ Cert.KernelIdeal.Body.rowLocal

/-- So does the reference: its run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer of the arguments: the kernel's
    result array block by block, the reference's operation by operation. -/
theorem algebraic : Cert.algebraic_KernelIdeal_ReferenceIdeal := by
  intro m ρ m' ρ' _ hagree
  refine ⟨_, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_is_layer,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
